-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x48 : Shape := ⟨2, ![1600000, 48]⟩
abbrev S1600000 : Shape := ⟨1, ![1600000]⟩
abbrev S100000x128 : Shape := ⟨2, ![100000, 128]⟩
abbrev S64 : Shape := ⟨1, ![64]⟩
abbrev S240x256 : Shape := ⟨2, ![240, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S1600000x48 : S_.BroadcastsInDim S1600000x48 (![] : Fin 0 → Fin S1600000x48.rank)
  reducesTo_S1600000x48_S_d0_1 : S1600000x48.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S64 : S_.BroadcastsInDim S64 (![] : Fin 0 → Fin S64.rank)
  reducesTo_S64_S_d0 : S64.ReducesTo [0] S_
  bcast_S_S240x256 : S_.BroadcastsInDim S240x256 (![] : Fin 0 → Fin S240x256.rank)
  reducesTo_S240x256_S_d0_1 : S240x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256 .f32) (main_arg6 : FVec F S256x128 .f32) (main_arg7 : FVec F S128 .f32) (main_v13 : IVec S_ 1) (main_v16 : IVec S240x256 1) : IVec S_ 1 :=
  let main_c_5 : IVec S_ 1 := constantI S_ 1 1#1
  let main_v17 : IVec S_ 1 := (fun x v => Host.reduce IntOp.andi x v reducesTo_S240x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S1600000x48 .f32) (main_arg1 : IVec S1600000 32) (main_arg2 : FVec F S100000x128 .f32) (main_arg3 : FVec F S64 .f32) (main_arg4 : FVec F S240x256 .f32) (main_arg5 : FVec F S256 .f32) (main_arg6 : FVec F S256x128 .f32) (main_arg7 : FVec F S128 .f32) : IVec S_ 1 :=
  let main_v0 : FVec F S1600000x48 .f32 := Host.absf main_arg0
  let main_cst : FVec F S_ .f32 := constant S_ .f32 0x7F800000#32
  let main_v1 : FVec F S1600000x48 .f32 := broadcastInDim S1600000x48 ![] bcast_S_S1600000x48 main_cst
  let main_v2 : IVec S1600000x48 1 := cmpf .olt main_v0 main_v1
  let main_c : IVec S_ 1 := constantI S_ 1 1#1
  let main_v3 : IVec S_ 1 := (fun x v => Host.reduce IntOp.andi x v reducesTo_S1600000x48_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S240x256 .f32 := Host.absf main_arg4
  let main_cst_4 : FVec F S_ .f32 := constant S_ .f32 0x7F800000#32
  let main_v15 : FVec F S240x256 .f32 := broadcastInDim S240x256 ![] bcast_S_S240x256 main_cst_4
  let main_v16 : IVec S240x256 1 := cmpf .olt main_v14 main_v15
  fn_part1 (F := F) main_arg5 main_arg6 main_arg7 main_v13 main_v16
-- ==== Kernel.lean ====
abbrev S1600000x48 : Shape := ⟨2, ![1600000, 48]⟩
abbrev S1600000 : Shape := ⟨1, ![1600000]⟩
abbrev S100000x128 : Shape := ⟨2, ![100000, 128]⟩
abbrev S64 : Shape := ⟨1, ![64]⟩
abbrev S240x256 : Shape := ⟨2, ![240, 256]⟩
abbrev S256 : Shape := ⟨1, ![256]⟩
abbrev S256x128 : Shape := ⟨2, ![256, 128]⟩
abbrev S128 : Shape := ⟨1, ![128]⟩
abbrev S_ : Shape := ⟨0, ![]⟩
abbrev S100000x48 : Shape := ⟨2, ![100000, 48]⟩
abbrev S1600000x1 : Shape := ⟨2, ![1600000, 1]⟩
abbrev S100000 : Shape := ⟨1, ![100000]⟩
abbrev S100000x1 : Shape := ⟨2, ![100000, 1]⟩
abbrev S1x64 : Shape := ⟨2, ![1, 64]⟩
abbrev S1x256 : Shape := ⟨2, ![1, 256]⟩
abbrev S1x128 : Shape := ⟨2, ![1, 128]⟩
abbrev S5000x48 : Shape := ⟨2, ![5000, 48]⟩
abbrev S5000x128 : Shape := ⟨2, ![5000, 128]⟩
abbrev S5000x64 : Shape := ⟨2, ![5000, 64]⟩
abbrev S5000x240 : Shape := ⟨2, ![5000, 240]⟩
abbrev S5000x256 : Shape := ⟨2, ![5000, 256]⟩

abbrev nBuf : Space → Nat
  | .hbm => 28
  | .vmem => 11
  | .smem => 0
  | _ => 0

abbrev bufTy : (tb : Table) → Fin (tcTables nBuf tb) → BufTy
  | .hbm, ⟨0, _⟩ => ⟨S1600000x48, .f32⟩
  | .hbm, ⟨1, _⟩ => ⟨S1600000, .i32⟩
  | .hbm, ⟨2, _⟩ => ⟨S100000x128, .f32⟩
  | .hbm, ⟨3, _⟩ => ⟨S64, .f32⟩
  | .hbm, ⟨4, _⟩ => ⟨S240x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S_, .f32⟩
  | .hbm, ⟨9, _⟩ => ⟨S100000x48, .f32⟩
  | .hbm, ⟨10, _⟩ => ⟨S1600000x1, .i32⟩
  | .hbm, ⟨11, _⟩ => ⟨S100000x48, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000x48, .f32⟩
  | .hbm, ⟨23, _⟩ => ⟨S100000x48, .f32⟩
  | .hbm, ⟨24, _⟩ => ⟨S1x64, .f32⟩
  | .hbm, ⟨25, _⟩ => ⟨S1x256, .f32⟩
  | .hbm, ⟨26, _⟩ => ⟨S1x128, .f32⟩
  | .hbm, ⟨27, _⟩ => ⟨S100000x128, .f32⟩
  | .local _ .vmem, ⟨0, _⟩ => ⟨S5000x48, .f32⟩
  | .local _ .vmem, ⟨1, _⟩ => ⟨S5000x48, .f32⟩
  | .local _ .vmem, ⟨2, _⟩ => ⟨S5000x128, .f32⟩
  | .local _ .vmem, ⟨3, _⟩ => ⟨S5000x128, .f32⟩
  | .local _ .vmem, ⟨4, _⟩ => ⟨S1x64, .f32⟩
  | .local _ .vmem, ⟨5, _⟩ => ⟨S240x256, .f32⟩
  | .local _ .vmem, ⟨6, _⟩ => ⟨S1x256, .f32⟩
  | .local _ .vmem, ⟨7, _⟩ => ⟨S256x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S1600000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S240x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S100000x48 : S_.BroadcastsInDim S100000x48 (![] : Fin 0 → Fin S100000x48.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x48_0_1 : S100000x1.BroadcastsInDim S100000x48 (![0, 1] : Fin 2 → Fin S100000x48.rank)
  shapeCasts_S64_S1x64 : S64.ShapeCasts S1x64
  shapeCasts_S256_S1x256 : S256.ShapeCasts S1x256
  shapeCasts_S128_S1x128 : S128.ShapeCasts S1x128
  inb_S5000x48_S5000x48_0_0 : ∀ a, (![0, 0] : Fin 2 → Nat) a + S5000x48.size a ≤ S5000x48.size a
  h_S5000x48 : 0 < S5000x48.numel
  shapeCasts_S5000x48_S5000x48 : S5000x48.ShapeCasts S5000x48
  inb_S5000x128_S5000x128_0_0 : ∀ a, (![0, 0] : Fin 2 → Nat) a + S5000x128.size a ≤ S5000x128.size a
  h_S5000x128 : 0 < S5000x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  concatenates_S5000x48_S5000x128_S5000x64_S5000x240_d1 : Shape.Concatenates [S5000x48, S5000x128, S5000x64] S5000x240 1
  bitsLt_bf16_f32 : FTy.bits .bf16 < FTy.bits .f32
  inb_S240x256_S240x256_0_0 : ∀ a, (![0, 0] : Fin 2 → Nat) a + S240x256.size a ≤ S240x256.size a
  h_S240x256 : 0 < S240x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000x48_S1600000x1_S1600000x48_1_0_0_1_wf : ScatterDims.WF S100000x48 S1600000x1 S1600000x48 [1] [0] [0] 1
  scatter_S100000_S1600000x1_S1600000_n_0_0_1_wf : ScatterDims.WF S100000 S1600000x1 S1600000 [] [0] [0] 1
  dot_S5000x240_S240x256_S5000x256_1_0_0_1_n_n_wf : DotDims.WF S5000x240 S240x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x48.size a ≤ S100000x48.size a
  hwx0_0 : ∀ i : grid0.Coords, EltTy.bits .f32 = 32 ∨ (Rect.block (s := S100000x48) S5000x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S240x256.size a ≤ S240x256.size a
  hwx0_3 : ∀ i : grid0.Coords, EltTy.bits .f32 = 32 ∨ (Rect.block (s := S240x256) S240x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)

variable [Facts₀]

def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x240_S240x256_S5000x256_1_0_0_1_n_n : DotDims S5000x240 S240x256 S5000x256 where
  lhsContracting := [1]
  rhsContracting := [0]
  lhsNonContracting := [0]
  rhsNonContracting := [1]
  lhsBatch := []
  rhsBatch := []
  wf := dot_S5000x240_S240x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v11) S5000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S240x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1600000x48 : Shape := ⟨2, ![1600000, 48]⟩
abbrev S1600000 : Shape := ⟨1, ![1600000]⟩
abbrev S100000x128 : Shape := ⟨2, ![100000, 128]⟩
abbrev S64 : Shape := ⟨1, ![64]⟩
abbrev S240x256 : Shape := ⟨2, ![240, 256]⟩
abbrev S256 : Shape := ⟨1, ![256]⟩
abbrev S256x128 : Shape := ⟨2, ![256, 128]⟩
abbrev S128 : Shape := ⟨1, ![128]⟩
abbrev S_ : Shape := ⟨0, ![]⟩
abbrev S100000x48 : Shape := ⟨2, ![100000, 48]⟩
abbrev S1600000x1 : Shape := ⟨2, ![1600000, 1]⟩
abbrev S100000 : Shape := ⟨1, ![100000]⟩
abbrev S100000x1 : Shape := ⟨2, ![100000, 1]⟩
abbrev S100000x64 : Shape := ⟨2, ![100000, 64]⟩
abbrev S100000x240 : Shape := ⟨2, ![100000, 240]⟩
abbrev S100000x256 : Shape := ⟨2, ![100000, 256]⟩
abbrev S1x256 : Shape := ⟨2, ![1, 256]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S1600000x48, .f32⟩
  | .hbm, ⟨1, _⟩ => ⟨S1600000, .i32⟩
  | .hbm, ⟨2, _⟩ => ⟨S100000x128, .f32⟩
  | .hbm, ⟨3, _⟩ => ⟨S64, .f32⟩
  | .hbm, ⟨4, _⟩ => ⟨S240x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S_, .f32⟩
  | .hbm, ⟨9, _⟩ => ⟨S100000x48, .f32⟩
  | .hbm, ⟨10, _⟩ => ⟨S1600000x1, .i32⟩
  | .hbm, ⟨11, _⟩ => ⟨S100000x48, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000x48, .f32⟩
  | .hbm, ⟨23, _⟩ => ⟨S100000x48, .f32⟩
  | .hbm, ⟨24, _⟩ => ⟨S100000x64, .f32⟩
  | .hbm, ⟨25, _⟩ => ⟨S100000x240, .f32⟩
  | .hbm, ⟨26, _⟩ => ⟨S100000x256, .f32⟩
  | .hbm, ⟨27, _⟩ => ⟨S1x256, .f32⟩
  | .hbm, ⟨28, _⟩ => ⟨S100000x256, .f32⟩
  | .hbm, ⟨29, _⟩ => ⟨S100000x256, .f32⟩
  | .hbm, ⟨30, _⟩ => ⟨S_, .f32⟩
  | .hbm, ⟨31, _⟩ => ⟨S100000x256, .f32⟩
  | .hbm, ⟨32, _⟩ => ⟨S100000x256, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | _, _ => ⟨S1600000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_cst : Ref sig .tc := ⟨.hbm, 30, rfl⟩
abbrev main_call0_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  bcast_S_S100000x48 : S_.BroadcastsInDim S100000x48 (![] : Fin 0 → Fin S100000x48.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x48_0_1 : S100000x1.BroadcastsInDim S100000x48 (![0, 1] : Fin 2 → Fin S100000x48.rank)
  bcast_S64_S100000x64_1 : S64.BroadcastsInDim S100000x64 (![1] : Fin 1 → Fin S100000x64.rank)
  concatenates_S100000x48_S100000x128_S100000x64_S100000x240_d1 : Shape.Concatenates [S100000x48, S100000x128, S100000x64] S100000x240 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000x48_S1600000x1_S1600000x48_1_0_0_1_wf : ScatterDims.WF S100000x48 S1600000x1 S1600000x48 [1] [0] [0] 1
  scatter_S100000_S1600000x1_S1600000_n_0_0_1_wf : ScatterDims.WF S100000 S1600000x1 S1600000 [] [0] [0] 1
  dot_S100000x240_S240x256_S100000x256_1_0_0_1_n_n_wf : DotDims.WF S100000x240 S240x256 S100000x256 [1] [0] [0] [1] [] []
  dot_S100000x256_S256x128_S100000x128_1_0_0_1_n_n_wf : DotDims.WF S100000x256 S256x128 S100000x128 [1] [0] [0] [1] [] []

variable [Facts₀]

def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x240_S240x256_S100000x256_1_0_0_1_n_n : DotDims S100000x240 S240x256 S100000x256 where
  lhsContracting := [1]
  rhsContracting := [0]
  lhsNonContracting := [0]
  rhsNonContracting := [1]
  lhsBatch := []
  rhsBatch := []
  wf := dot_S100000x240_S240x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.RegionEntry.lean ====
/-
  What the kernel's input arrays hold when the region is entered. The host lines before the region compute the
  mean aggregation of the edge features per receiving node — two scatter-additions and a division — and recast
  the global feature vector and the two bias vectors as one-row matrices. The aggregation is the very same chain
  of operations, on the same two arguments, as the reference's stage for its own aggregation, so it is carried
  as that one term and never opened.
-/
import proofs.«122300_j44865228374365_1_alg».proof.Proof.Gen.KernelIdeal.Frame
import proofs.«122300_j44865228374365_1_alg».proof.Proof.Gen.ReferenceIdeal.Read
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The aggregated edge features the region reads are the reference's aggregation of the same edge features and receivers. -/
theorem agg_entry (c : Dev nD) :
    (V m c main_v11 : S100000x48.Idx → EReal)
      = Cert.ReferenceIdeal.Read.val_main_v11 (F := Ideal) (m ((c : Thread nD τ).loc main_arg0)) (m ((c : Thread nD τ).loc main_arg1)) := by
  dsimp only [V, hostOps0]
  after_results
  rfl

/-- The global features as the region reads them: the argument vector recast as one row. -/
theorem glob_entry (c : Dev nD) :
    (V m c main_v12 : S1x64.Idx → EReal) = shapeCast S1x64 (m ((c : Thread nD τ).loc main_arg3) : S64.Idx → EReal) shapeCasts_S64_S1x64 := by
  dsimp only [V, hostOps0]
  after_results
  rfl

/-- The first bias as the region reads it: the argument vector recast as one row. -/
theorem bias1_entry (c : Dev nD) :
    (V m c main_v13 : S1x256.Idx → EReal) = shapeCast S1x256 (m ((c : Thread nD τ).loc main_arg5) : S256.Idx → EReal) shapeCasts_S256_S1x256 := by
  dsimp only [V, hostOps0]
  after_results
  rfl

/-- The second bias as the region reads it: the argument vector recast as one row. -/
theorem bias2_entry (c : Dev nD) :
    (V m c main_v14 : S1x128.Idx → EReal) = shapeCast S1x128 (m ((c : Thread nD τ).loc main_arg7) : S128.Idx → EReal) shapeCasts_S128_S1x128 := by
  dsimp only [V, hostOps0]
  after_results
  rfl

end Cert.KernelIdeal.Entry

end
-- ==== Proof.MlpSpec.lean ====
/-
  The mathematics both programs compute, stated once over plain index types.

  A node's feature row is the concatenation of three pieces: its 48 aggregated edge features, its own 128
  features and the 64 global features (`feat`). The update is a two-layer perceptron on that row:
  `hidden j = max (Σₖ feat k · W1[k, j] + b1[j]) 0` and `out c = Σⱼ hidden j · W2[j, c] + b2[c]`, all on the
  extended reals. `mlp` is that function of the row, applied to every row of an `R`-row array; the number of
  rows is a parameter because one program applies it to all rows at once and the other to blocks of rows.

  Also here: a concatenation of three arrays along the column axis, read at (row, column), is `feat` of the three
  arrays' rows (`concat3_apply`).
-/
import Idealize.ShloMosaic.PureOps.Ideal
import Idealize.ShloMosaic.PureOps.Ideal.Laws
import Idealize.ShloMosaic.Lib.ValueIdx
import Idealize.ShloMosaic.Lib.Pipeline.Value

noncomputable section

namespace Cert.Mlp

open Idealize.ShloMosaic Idealize.ShloMosaic.ValueIdx

/-- A node's feature row: columns 0–47 the aggregated edge features, 48–175 the node's own, 176–239 the global ones. -/
def feat (a : Fin 48 → EReal) (n : Fin 128 → EReal) (g : Fin 64 → EReal) (k : Fin 240) : EReal :=
  if h : k.val < 48 then a ⟨k.val, h⟩
  else if h' : k.val < 176 then n ⟨k.val - 48, by omega⟩
  else g ⟨k.val - 176, by have := k.isLt; omega⟩

/-- The hidden layer at unit `j`: the row times column `j` of the first weight matrix, plus the bias, clamped below at zero. -/
def hidden (x : Fin 240 → EReal) (W1 : (⟨2, ![240, 256]⟩ : Shape).Idx → EReal) (b1 : Fin 256 → EReal) (j : Fin 256) : EReal :=
  max ((∑ k : Fin 240, x k * W1 (ix2 k j)) + b1 j) (Ideal.ofBits .f32 0x00000000#32)

/-- The output layer at column `c`: the hidden row times column `c` of the second weight matrix, plus the bias. -/
def outRow (h : Fin 256 → EReal) (W2 : (⟨2, ![256, 128]⟩ : Shape).Idx → EReal) (b2 : Fin 128 → EReal) (c : Fin 128) : EReal :=
  (∑ j : Fin 256, h j * W2 (ix2 j c)) + b2 c

/-- The perceptron applied to every row of an `R`-row array of aggregated features and an `R`-row array of node features. -/
def mlp {R : Nat} (agg : (⟨2, ![R, 48]⟩ : Shape).Idx → EReal) (nd : (⟨2, ![R, 128]⟩ : Shape).Idx → EReal) (g : Fin 64 → EReal)
    (W1 : (⟨2, ![240, 256]⟩ : Shape).Idx → EReal) (b1 : Fin 256 → EReal)
    (W2 : (⟨2, ![256, 128]⟩ : Shape).Idx → EReal) (b2 : Fin 128 → EReal) (r : Fin R) (c : Fin 128) : EReal :=
  outRow (hidden (feat (fun k => agg (ix2 r k)) (fun k => nd (ix2 r k)) g) W1 b1) W2 b2 c

/-- Three arrays of 48, 128 and 64 columns laid side by side, read at row `r` and column `k`: the piece whose span of
    columns holds `k`, at `k` less the columns before it. -/
theorem concat3_apply {R : Nat} (a : (⟨2, ![R, 48]⟩ : Shape).Idx → EReal) (n : (⟨2, ![R, 128]⟩ : Shape).Idx → EReal)
    (g : (⟨2, ![R, 64]⟩ : Shape).Idx → EReal)
    (h : Shape.Concatenates [(⟨2, ![R, 48]⟩ : Shape), ⟨2, ![R, 128]⟩, ⟨2, ![R, 64]⟩] ⟨2, ![R, 240]⟩ 1)
    (r : Fin R) (k : Fin 240) :
    concatenate ⟨2, ![R, 240]⟩ 1 [⟨⟨2, ![R, 48]⟩, a⟩, ⟨⟨2, ![R, 128]⟩, n⟩, ⟨⟨2, ![R, 64]⟩, g⟩] h (ix2 r k)
      = feat (fun k => a (ix2 r k)) (fun k => n (ix2 r k)) (fun k => g (ix2 r k)) k := by
  unfold feat
  have hk := k.isLt
  split
  · next h0 =>
    exact concatenate_apply_piece 1 [⟨⟨2, ![R, 48]⟩, a⟩, ⟨⟨2, ![R, 128]⟩, n⟩, ⟨⟨2, ![R, 64]⟩, g⟩] h (ix2 r k) 0 (by show (0 : Nat) < 3; omega) _ a rfl rfl 0 rfl (ix2 r ⟨k.val, h0⟩)
      (fun b hb => match b with | ⟨0, _⟩ => rfl | ⟨1, _⟩ => absurd rfl hb) (by show 0 + k.val = k.val; omega)
  · next h0 =>
    split
    · next h1 =>
      exact concatenate_apply_piece 1 [⟨⟨2, ![R, 48]⟩, a⟩, ⟨⟨2, ![R, 128]⟩, n⟩, ⟨⟨2, ![R, 64]⟩, g⟩] h (ix2 r k) 1 (by show (1 : Nat) < 3; omega) _ n rfl rfl 48 rfl (ix2 r ⟨k.val - 48, by omega⟩)
        (fun b hb => match b with | ⟨0, _⟩ => rfl | ⟨1, _⟩ => absurd rfl hb) (by show 48 + (k.val - 48) = k.val; omega)
    · next h1 =>
      exact concatenate_apply_piece 1 [⟨⟨2, ![R, 48]⟩, a⟩, ⟨⟨2, ![R, 128]⟩, n⟩, ⟨⟨2, ![R, 64]⟩, g⟩] h (ix2 r k) 2 (by show (2 : Nat) < 3; omega) _ g rfl rfl 176 rfl (ix2 r ⟨k.val - 176, by omega⟩)
        (fun b hb => match b with | ⟨0, _⟩ => rfl | ⟨1, _⟩ => absurd rfl hb) (by show 176 + (k.val - 176) = k.val; omega)

end Cert.Mlp

end
-- ==== Proof.BlockProducts.lean ====
/-
  The two matrix products of the kernel body, read at one entry. On the extended reals a product accumulated
  into a zero accumulator is the plain sum, over the contracted axis, of the operands' products: entry (p, j) of
  `l · r` is `Σₖ l[p, k] · r[k, j]`. The contraction index of the printed product is a one-axis index; the sum
  is re-indexed over `Fin K` through the bijection between the two, and the operand indices the product reads
  are identified coordinate by coordinate.
-/
import proofs.«122300_j44865228374365_1_alg».proof.Proof.Gen.KernelIdeal
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.TcCoe Idealize.ShloMosaic.ValueIdx

/-! ## The 5000×240 by 240×256 product -/

abbrev prod1 := dot_S5000x240_S240x256_S5000x256_1_0_0_1_n_n

theorem prod1_lhs0 (i : S5000x256.Idx) (q : prod1.contr.Idx) : (prod1.lhsIdx i q 0).val = (i 0).val := by
  unfold DotDims.lhsIdx
  rw [dif_neg (show ¬(0 : Fin S5000x240.rank) ∈ prod1.lhsBatch by decide), dif_pos (show (0 : Fin S5000x240.rank) ∈ prod1.lhsNonContracting by decide)]
  rfl
theorem prod1_lhs1 (i : S5000x256.Idx) (q : prod1.contr.Idx) : (prod1.lhsIdx i q 1).val = (q ⟨0, by decide⟩).val :=
  prod1.lhsIdx_val_of_single rfl i q
theorem prod1_rhs0 (i : S5000x256.Idx) (q : prod1.contr.Idx) : (prod1.rhsIdx i q 0).val = (q ⟨0, by decide⟩).val :=
  prod1.rhsIdx_val_of_single rfl i q
theorem prod1_rhs1 (i : S5000x256.Idx) (q : prod1.contr.Idx) : (prod1.rhsIdx i q 1).val = (i 1).val := by
  unfold DotDims.rhsIdx
  rw [dif_neg (show ¬(1 : Fin S240x256.rank) ∈ prod1.rhsBatch by decide), dif_pos (show (1 : Fin S240x256.rank) ∈ prod1.rhsNonContracting by decide)]
  rfl

/-- The product into a zero accumulator, at row `p` and column `j`: the sum over the 240 contracted positions of the
    left operand's row `p` times the right operand's column `j`. -/
theorem prod1_apply (l : FVec Ideal S5000x240 .bf16) (r : FVec Ideal S240x256 .bf16) (p : Fin 5000) (j : Fin 256) :
    matmul prod1 none l r (constant (F := Ideal) S5000x256 .f32 0x00000000#32) (ix2 p j) = ∑ k : Fin 240, l (ix2 p k) * r (ix2 k j) := by
  simp only [matmul]
  rw [Ideal.matmul_constant_zero_apply, ← Equiv.sum_comp (contrEquiv1 prod1 240 rfl rfl).symm]
  refine Finset.sum_congr rfl fun k _ => ?_
  have hk := contrEquiv1_symm_val prod1 240 rfl rfl k
  have el : prod1.lhsIdx (ix2 p j) ((contrEquiv1 prod1 240 rfl rfl).symm k) = ix2 p k := funext fun a => Fin.ext (by
    match a with
    | ⟨0, _⟩ => exact prod1_lhs0 _ _
    | ⟨1, _⟩ => exact (prod1_lhs1 _ _).trans hk)
  have er : prod1.rhsIdx (ix2 p j) ((contrEquiv1 prod1 240 rfl rfl).symm k) = ix2 k j := funext fun a => Fin.ext (by
    match a with
    | ⟨0, _⟩ => exact (prod1_rhs0 _ _).trans hk
    | ⟨1, _⟩ => exact prod1_rhs1 _ _)
  rw [el, er]

/-! ## The 5000×256 by 256×128 product -/

abbrev prod2 := dot_S5000x256_S256x128_S5000x128_1_0_0_1_n_n

theorem prod2_lhs0 (i : S5000x128.Idx) (q : prod2.contr.Idx) : (prod2.lhsIdx i q 0).val = (i 0).val := by
  unfold DotDims.lhsIdx
  rw [dif_neg (show ¬(0 : Fin S5000x256.rank) ∈ prod2.lhsBatch by decide), dif_pos (show (0 : Fin S5000x256.rank) ∈ prod2.lhsNonContracting by decide)]
  rfl
theorem prod2_lhs1 (i : S5000x128.Idx) (q : prod2.contr.Idx) : (prod2.lhsIdx i q 1).val = (q ⟨0, by decide⟩).val :=
  prod2.lhsIdx_val_of_single rfl i q
theorem prod2_rhs0 (i : S5000x128.Idx) (q : prod2.contr.Idx) : (prod2.rhsIdx i q 0).val = (q ⟨0, by decide⟩).val :=
  prod2.rhsIdx_val_of_single rfl i q
theorem prod2_rhs1 (i : S5000x128.Idx) (q : prod2.contr.Idx) : (prod2.rhsIdx i q 1).val = (i 1).val := by
  unfold DotDims.rhsIdx
  rw [dif_neg (show ¬(1 : Fin S256x128.rank) ∈ prod2.rhsBatch by decide), dif_pos (show (1 : Fin S256x128.rank) ∈ prod2.rhsNonContracting by decide)]
  rfl

/-- The product into a zero accumulator, at row `p` and column `j`: the sum over the 256 contracted positions of the
    left operand's row `p` times the right operand's column `j`. -/
theorem prod2_apply (l : FVec Ideal S5000x256 .bf16) (r : FVec Ideal S256x128 .bf16) (p : Fin 5000) (j : Fin 128) :
    matmul prod2 none l r (constant (F := Ideal) S5000x128 .f32 0x00000000#32) (ix2 p j) = ∑ k : Fin 256, l (ix2 p k) * r (ix2 k j) := by
  simp only [matmul]
  rw [Ideal.matmul_constant_zero_apply, ← Equiv.sum_comp (contrEquiv1 prod2 256 rfl rfl).symm]
  refine Finset.sum_congr rfl fun k _ => ?_
  have hk := contrEquiv1_symm_val prod2 256 rfl rfl k
  have el : prod2.lhsIdx (ix2 p j) ((contrEquiv1 prod2 256 rfl rfl).symm k) = ix2 p k := funext fun a => Fin.ext (by
    match a with
    | ⟨0, _⟩ => exact prod2_lhs0 _ _
    | ⟨1, _⟩ => exact (prod2_lhs1 _ _).trans hk)
  have er : prod2.rhsIdx (ix2 p j) ((contrEquiv1 prod2 256 rfl rfl).symm k) = ix2 k j := funext fun a => Fin.ext (by
    match a with
    | ⟨0, _⟩ => exact (prod2_rhs0 _ _).trans hk
    | ⟨1, _⟩ => exact prod2_rhs1 _ _)
  rw [el, er]

end Cert.KernelIdeal.Body

end
-- ==== Proof.BlockRow.lean ====
/-
  What the kernel body stores, read at one entry. For a block of rows the body lays the block's aggregated
  features, the block's node features and the one row of global features (repeated down the rows) side by side,
  multiplies by the first weight matrix, adds the first bias row (repeated down the rows), clamps below at zero,
  multiplies by the second weight matrix and adds the second bias row. The roundings to the narrower float format
  on the way into the two products are the identity on the extended reals, so entry (p, q) of the stored block
  is the perceptron of `Cert.Mlp.mlp` applied to row `p` of the two loaded blocks.
-/
import proofs.«122300_j44865228374365_1_alg».proof.Proof.Gen.KernelIdeal.Skeleton
import proofs.«122300_j44865228374365_1_alg».proof.Proof.MlpSpec
import proofs.«122300_j44865228374365_1_alg».proof.Proof.BlockProducts
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.TcCoe Idealize.ShloMosaic.ValueIdx Cert.Mlp

/-- The first layer at row `p`, unit `j`: the row of `x` times column `j` of `w`, plus the bias row's entry `j`, clamped at zero. -/
theorem layer1_apply (x : FVec Ideal S5000x240 .f32) (w : Vec Ideal S240x256 .f32) (b : Vec Ideal S1x256 .f32) (p : Fin 5000) (j : Fin 256) :
    maximumf (addf (matmul dot_S5000x240_S240x256_S5000x256_1_0_0_1_n_n none (truncf .bf16 x bitsLt_bf16_f32) (truncf .bf16 w bitsLt_bf16_f32) (constant (F := Ideal) S5000x256 .f32 0x00000000#32))
        (broadcastTo S5000x256 (shapeCast S1x256 b shapeCasts_S1x256_S1x256) broadcasts_S1x256_S5000x256))
      (broadcast S5000x256 (Scalar.ofBits (F := Ideal) .f32 0x00000000#32)) (ix2 p j)
    = max ((∑ k : Fin 240, x (ix2 p k) * w (ix2 k j)) + b (ix2 (0 : Fin 1) j)) (Ideal.ofBits .f32 0x00000000#32) := by
  show max (matmul prod1 none _ _ _ (ix2 p j) + broadcastTo S5000x256 _ _ (ix2 p j)) _ = _
  rw [prod1_apply, shapeCast_self, broadcastTo_1b_ab_apply]
  rfl

/-- The second layer at row `p`, column `c`: the row of `h` times column `c` of `w`, plus the bias row's entry `c`. -/
theorem layer2_apply (h : FVec Ideal S5000x256 .f32) (w : Vec Ideal S256x128 .f32) (b : Vec Ideal S1x128 .f32) (p : Fin 5000) (c : Fin 128) :
    addf (matmul dot_S5000x256_S256x128_S5000x128_1_0_0_1_n_n none (truncf .bf16 h bitsLt_bf16_f32) (truncf .bf16 w bitsLt_bf16_f32) (constant (F := Ideal) S5000x128 .f32 0x00000000#32))
        (broadcastTo S5000x128 (shapeCast S1x128 b shapeCasts_S1x128_S1x128) broadcasts_S1x128_S5000x128) (ix2 p c)
    = (∑ j : Fin 256, h (ix2 p j) * w (ix2 j c)) + b (ix2 (0 : Fin 1) c) := by
  show matmul prod2 none _ _ _ (ix2 p c) + broadcastTo S5000x128 _ _ (ix2 p c) = _
  rw [prod2_apply, shapeCast_self, broadcastTo_1b_ab_apply]
  rfl

/-- The block's feature rows: the three pieces side by side, read at row `p` and column `k`. -/
theorem features_apply (v0 : Vec Ideal S5000x48 .f32) (v2 : Vec Ideal S5000x128 .f32) (v3 : Vec Ideal S1x64 .f32) (p : Fin 5000) (k : Fin 240) :
    concatenate S5000x240 1 [⟨S5000x48, shapeCast S5000x48 v0 shapeCasts_S5000x48_S5000x48⟩, ⟨S5000x128, v2⟩,
        ⟨S5000x64, broadcastTo S5000x64 (shapeCast S1x64 (shapeCast S1x64 v3 shapeCasts_S1x64_S1x64) shapeCasts_S1x64_S1x64) broadcasts_S1x64_S5000x64⟩]
      concatenates_S5000x48_S5000x128_S5000x64_S5000x240_d1 (ix2 p k)
    = feat (fun k => v0 (ix2 p k)) (fun k => v2 (ix2 p k)) (fun k => v3 (ix2 (0 : Fin 1) k)) k := by
  rw [shapeCast_self, shapeCast_self, shapeCast_self]
  refine (concat3_apply (R := 5000) v0 v2 _ concatenates_S5000x48_S5000x128_S5000x64_S5000x240_d1 p k).trans ?_
  refine congrArg (fun g => feat _ _ g k) (funext fun k' => ?_)
  exact broadcastTo_1b_ab_apply v3 broadcasts_S1x64_S5000x64 p k'

/-- The stored block at row `p`, column `q`: the perceptron of row `p` of the two loaded blocks. -/
theorem stored_apply (v0 : Vec Ideal S5000x48 .f32) (v2 : Vec Ideal S5000x128 .f32) (v3 : Vec Ideal S1x64 .f32) (v9 : Vec Ideal S240x256 .f32)
    (v12 : Vec Ideal S1x256 .f32) (v19 : Vec Ideal S256x128 .f32) (v22 : Vec Ideal S1x128 .f32) (p : Fin 5000) (q : Fin 128) :
    k0_pay1 (F := Ideal) v0 v2 v3 v9 v12 v19 v22 (ix2 p q)
      = mlp (R := 5000) v0 v2 (fun k => v3 (ix2 (0 : Fin 1) k)) v9 (fun j => v12 (ix2 (0 : Fin 1) j)) v19 (fun c => v22 (ix2 (0 : Fin 1) c)) p q := by
  unfold k0_pay1 mlp outRow
  dsimp only
  refine (layer2_apply _ v19 v22 p q).trans ?_
  refine congrArg (· + v22 (ix2 (0 : Fin 1) q)) (Finset.sum_congr rfl fun j _ => congrArg (· * v19 (ix2 j q)) ?_)
  refine (layer1_apply _ v9 v12 p j).trans ?_
  unfold Cert.Mlp.hidden
  refine congrArg (fun s => max (s + v12 (ix2 (0 : Fin 1) j)) (Ideal.ofBits .f32 0x00000000#32)) (Finset.sum_congr rfl fun k _ => congrArg (· * v9 (ix2 k j)) ?_)
  exact features_apply v0 v2 v3 p k

end Cert.KernelIdeal.Body

end
-- ==== Proof.Blocks.lean ====
/-
  From blocks to the whole result array. The grid has 20 points; point `t` reads rows `5000 t … 5000 t + 4999` of
  the aggregated features and of the node features, reads the global features, the two weight matrices and the two
  biases whole, and writes back rows `5000 t … 5000 t + 4999` of the result. Since the perceptron acts row by row,
  what point `t` writes back is block `t` of ONE whole-array function: the perceptron applied to every row of the
  full aggregated and node feature arrays (`result`). The 20 blocks tile the 100000 rows (row `r` lies in block
  `r / 5000`), so after the run the result array is that function.
-/
import proofs.«122300_j44865228374365_1_alg».proof.Proof.Gen.KernelIdeal.Frame
import proofs.«122300_j44865228374365_1_alg».proof.Proof.Gen.KernelIdeal.Value
import proofs.«122300_j44865228374365_1_alg».proof.Proof.MlpSpec
import proofs.«122300_j44865228374365_1_alg».proof.Proof.BlockRow
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.SL.Sem Idealize.ShloMosaic.ValueIdx Cert.Mlp
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- A grid point is one of 20. -/
theorem point_lt (t : Fin cfg0.N) : t.val < 20 := Nat.lt_of_lt_of_eq t.isLt N_0

/-- Row `p` of point `t`'s block is row `5000 t + p` of the array. -/
def rowOf (t : Fin cfg0.N) (p : Fin 5000) : Fin 100000 := ⟨5000 * t.val + p.val, by have := point_lt t; omega⟩

/-- The perceptron's output at a row depends on the two row-blocked arrays only through that row, and on the other
    operands as given: equal rows and equal operands give equal outputs. -/
theorem mlp_congr {R R' : Nat} (agg : (⟨2, ![R, 48]⟩ : Shape).Idx → EReal) (agg' : (⟨2, ![R', 48]⟩ : Shape).Idx → EReal)
    (nd : (⟨2, ![R, 128]⟩ : Shape).Idx → EReal) (nd' : (⟨2, ![R', 128]⟩ : Shape).Idx → EReal) (g g' : Fin 64 → EReal)
    (W1 W1' : (⟨2, ![240, 256]⟩ : Shape).Idx → EReal) (b1 b1' : Fin 256 → EReal) (W2 W2' : (⟨2, ![256, 128]⟩ : Shape).Idx → EReal) (b2 b2' : Fin 128 → EReal)
    (r : Fin R) (r' : Fin R') (c : Fin 128)
    (ha : ∀ k, agg (ix2 r k) = agg' (ix2 r' k)) (hn : ∀ k, nd (ix2 r k) = nd' (ix2 r' k))
    (hg : g = g') (hW1 : W1 = W1') (hb1 : b1 = b1') (hW2 : W2 = W2') (hb2 : b2 = b2') :
    mlp agg nd g W1 b1 W2 b2 r c = mlp agg' nd' g' W1' b1' W2' b2' r' c := by
  subst hg hW1 hb1 hW2 hb2
  unfold mlp
  rw [show (fun k => agg (ix2 r k)) = fun k => agg' (ix2 r' k) from funext ha,
    show (fun k => nd (ix2 r k)) = fun k => nd' (ix2 r' k) from funext hn]

/-- The printed index maps, decided over the 20 points: the two row-blocked inputs and the output move to block
    `t` of the rows at point `t`; the five whole inputs stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## Each input block, read off its array

The reads are proved for ANY array standing where the window's array stands, so that nothing in them depends on what
the host lines before the region computed; the array the region finds is then put in. -/

theorem arr0_eq (c : Dev nD) : V m c (Pipeline.arrRef spec0 (0 : Fin 8)) = V m c main_v11 := rfl
theorem arr1_eq (c : Dev nD) : V m c (Pipeline.arrRef spec0 (1 : Fin 8)) = V m c main_arg2 := rfl
theorem arr2_eq (c : Dev nD) : V m c (Pipeline.arrRef spec0 (2 : Fin 8)) = V m c main_v12 := rfl
theorem arr3_eq (c : Dev nD) : V m c (Pipeline.arrRef spec0 (3 : Fin 8)) = V m c main_arg4 := rfl
theorem arr4_eq (c : Dev nD) : V m c (Pipeline.arrRef spec0 (4 : Fin 8)) = V m c main_v13 := rfl
theorem arr5_eq (c : Dev nD) : V m c (Pipeline.arrRef spec0 (5 : Fin 8)) = V m c main_arg6 := rfl
theorem arr6_eq (c : Dev nD) : V m c (Pipeline.arrRef spec0 (6 : Fin 8)) = V m c main_v14 := rfl

/-- Rows `5000 t …` of an array of aggregated features, through window 0's block at point `t`. -/
theorem aggRead (c : Dev nD) (A : Buf (Elt Ideal) ((c : Thread nD τ).loc (Pipeline.arrRef spec0 (0 : Fin 8)))) (t : Fin cfg0.N) (p : Fin 5000) (k : Fin 48) :
    (((cfg0.win 0).blk t).view.read (Elt Ideal) A : Vec Ideal S5000x48 .f32) (ix2 p k) = (A : S100000x48.Idx → EReal) (ix2 (rowOf t p) k) := by
  obtain ⟨e0, e1, -⟩ := idx_facts t
  rw [View.read_apply]
  refine congrArg A (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 48 + 1 * k.val = k.val; rw [e1]; omega

/-- Rows `5000 t …` of an array of node features, through window 1's block at point `t`. -/
theorem nodeRead (c : Dev nD) (A : Buf (Elt Ideal) ((c : Thread nD τ).loc (Pipeline.arrRef spec0 (1 : Fin 8)))) (t : Fin cfg0.N) (p : Fin 5000) (k : Fin 128) :
    (((cfg0.win 1).blk t).view.read (Elt Ideal) A : Vec Ideal S5000x128 .f32) (ix2 p k) = (A : S100000x128.Idx → EReal) (ix2 (rowOf t p) k) := by
  obtain ⟨-, -, e0, e1, -⟩ := idx_facts t
  rw [View.read_apply]
  refine congrArg A (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 128 + 1 * k.val = k.val; rw [e1]; omega

/-- Window 2's block is its whole one-row array, at every point. -/
theorem globRead (c : Dev nD) (A : Buf (Elt Ideal) ((c : Thread nD τ).loc (Pipeline.arrRef spec0 (2 : Fin 8)))) (t : Fin cfg0.N) :
    (((cfg0.win 2).blk t).view.read (Elt Ideal) A : Vec Ideal S1x64 .f32) = (A : S1x64.Idx → EReal) := by
  obtain ⟨-, -, -, -, e0, e1, -⟩ := idx_facts t
  funext y
  rw [View.read_apply]
  refine congrArg A (funext fun a => Fin.ext ?_)
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- Window 3's block is its whole matrix, at every point. -/
theorem w1Read (c : Dev nD) (A : Buf (Elt Ideal) ((c : Thread nD τ).loc (Pipeline.arrRef spec0 (3 : Fin 8)))) (t : Fin cfg0.N) :
    (((cfg0.win 3).blk t).view.read (Elt Ideal) A : Vec Ideal S240x256 .f32) = (A : S240x256.Idx → EReal) := by
  obtain ⟨-, -, -, -, -, -, e0, e1, -⟩ := idx_facts t
  funext y
  rw [View.read_apply]
  refine congrArg A (funext fun a => Fin.ext ?_)
  match a with
  | ⟨0, _⟩ => show win0_3.index t (0 : Fin 2) * 240 + 1 * (y 0).val = (y 0).val; rw [e0]; omega
  | ⟨1, _⟩ => show win0_3.index t (1 : Fin 2) * 256 + 1 * (y 1).val = (y 1).val; rw [e1]; omega

/-- Window 4's block is its whole one-row array, at every point. -/
theorem b1Read (c : Dev nD) (A : Buf (Elt Ideal) ((c : Thread nD τ).loc (Pipeline.arrRef spec0 (4 : Fin 8)))) (t : Fin cfg0.N) :
    (((cfg0.win 4).blk t).view.read (Elt Ideal) A : Vec Ideal S1x256 .f32) = (A : S1x256.Idx → EReal) := by
  obtain ⟨-, -, -, -, -, -, -, -, e0, e1, -⟩ := idx_facts t
  funext y
  rw [View.read_apply]
  refine congrArg A (funext fun a => Fin.ext ?_)
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-- Window 5's block is its whole matrix, at every point. -/
theorem w2Read (c : Dev nD) (A : Buf (Elt Ideal) ((c : Thread nD τ).loc (Pipeline.arrRef spec0 (5 : Fin 8)))) (t : Fin cfg0.N) :
    (((cfg0.win 5).blk t).view.read (Elt Ideal) A : Vec Ideal S256x128 .f32) = (A : S256x128.Idx → EReal) := by
  obtain ⟨-, -, -, -, -, -, -, -, -, -, e0, e1, -⟩ := idx_facts t
  funext y
  rw [View.read_apply]
  refine congrArg A (funext fun a => Fin.ext ?_)
  match a with
  | ⟨0, _⟩ => show win0_5.index t (0 : Fin 2) * 256 + 1 * (y 0).val = (y 0).val; rw [e0]; omega
  | ⟨1, _⟩ => show win0_5.index t (1 : Fin 2) * 128 + 1 * (y 1).val = (y 1).val; rw [e1]; omega

/-- Window 6's block is its whole one-row array, at every point. -/
theorem b2Read (c : Dev nD) (A : Buf (Elt Ideal) ((c : Thread nD τ).loc (Pipeline.arrRef spec0 (6 : Fin 8)))) (t : Fin cfg0.N) :
    (((cfg0.win 6).blk t).view.read (Elt Ideal) A : Vec Ideal S1x128 .f32) = (A : S1x128.Idx → EReal) := by
  obtain ⟨-, -, -, -, -, -, -, -, -, -, -, -, e0, e1, -⟩ := idx_facts t
  funext y
  rw [View.read_apply]
  refine congrArg A (funext fun a => Fin.ext ?_)
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-- The aggregated-features block at point `t`: rows `5000 t …` of the array the region finds. -/
theorem aggBlock_apply (c : Dev nD) (t : Fin cfg0.N) (p : Fin 5000) (k : Fin 48) :
    (iblk m c 0 t : Vec Ideal S5000x48 .f32) (ix2 p k) = (V m c main_v11 : S100000x48.Idx → EReal) (ix2 (rowOf t p) k) := by
  rw [← arr0_eq m c]
  exact aggRead c (V m c (Pipeline.arrRef spec0 (0 : Fin 8))) t p k

/-- The node-features block at point `t`: rows `5000 t …` of the array the region finds. -/
theorem nodeBlock_apply (c : Dev nD) (t : Fin cfg0.N) (p : Fin 5000) (k : Fin 128) :
    (iblk m c 1 t : Vec Ideal S5000x128 .f32) (ix2 p k) = (V m c main_arg2 : S100000x128.Idx → EReal) (ix2 (rowOf t p) k) := by
  rw [← arr1_eq m c]
  exact nodeRead c (V m c (Pipeline.arrRef spec0 (1 : Fin 8))) t p k

/-- The global-features block is the whole one-row array, at every point. -/
theorem globBlock_eq (c : Dev nD) (t : Fin cfg0.N) : (iblk m c 2 t : Vec Ideal S1x64 .f32) = (V m c main_v12 : S1x64.Idx → EReal) := by
  rw [← arr2_eq m c]
  exact globRead c (V m c (Pipeline.arrRef spec0 (2 : Fin 8))) t

/-- The first weight matrix's block is the whole matrix, at every point. -/
theorem w1Block_eq (c : Dev nD) (t : Fin cfg0.N) : (iblk m c 3 t : Vec Ideal S240x256 .f32) = (V m c main_arg4 : S240x256.Idx → EReal) := by
  rw [← arr3_eq m c]
  exact w1Read c (V m c (Pipeline.arrRef spec0 (3 : Fin 8))) t

/-- The first bias's block is the whole one-row array, at every point. -/
theorem b1Block_eq (c : Dev nD) (t : Fin cfg0.N) : (iblk m c 4 t : Vec Ideal S1x256 .f32) = (V m c main_v13 : S1x256.Idx → EReal) := by
  rw [← arr4_eq m c]
  exact b1Read c (V m c (Pipeline.arrRef spec0 (4 : Fin 8))) t

/-- The second weight matrix's block is the whole matrix, at every point. -/
theorem w2Block_eq (c : Dev nD) (t : Fin cfg0.N) : (iblk m c 5 t : Vec Ideal S256x128 .f32) = (V m c main_arg6 : S256x128.Idx → EReal) := by
  rw [← arr5_eq m c]
  exact w2Read c (V m c (Pipeline.arrRef spec0 (5 : Fin 8))) t

/-- The second bias's block is the whole one-row array, at every point. -/
theorem b2Block_eq (c : Dev nD) (t : Fin cfg0.N) : (iblk m c 6 t : Vec Ideal S1x128 .f32) = (V m c main_v14 : S1x128.Idx → EReal) := by
  rw [← arr6_eq m c]
  exact b2Read c (V m c (Pipeline.arrRef spec0 (6 : Fin 8))) t

/-! ## The whole-array function, and what each point writes back -/

/-- The result array as one function of the arrays the region finds: the perceptron of every row. -/
def result (c : Dev nD) : S100000x128.Idx → EReal := fun i =>
  mlp (R := 100000) (V m c main_v11 : S100000x48.Idx → EReal) (V m c main_arg2 : S100000x128.Idx → EReal)
    (fun k => (V m c main_v12 : S1x64.Idx → EReal) (ix2 (0 : Fin 1) k)) (V m c main_arg4 : S240x256.Idx → EReal)
    (fun j => (V m c main_v13 : S1x256.Idx → EReal) (ix2 (0 : Fin 1) j)) (V m c main_arg6 : S256x128.Idx → EReal)
    (fun c' => (V m c main_v14 : S1x128.Idx → EReal) (ix2 (0 : Fin 1) c')) (i 0) (i 1)

theorem result_apply (c : Dev nD) (r : Fin 100000) (q : Fin 128) :
    result m c (ix2 r q) = mlp (R := 100000) (V m c main_v11 : S100000x48.Idx → EReal) (V m c main_arg2 : S100000x128.Idx → EReal)
      (fun k => (V m c main_v12 : S1x64.Idx → EReal) (ix2 (0 : Fin 1) k)) (V m c main_arg4 : S240x256.Idx → EReal)
      (fun j => (V m c main_v13 : S1x256.Idx → EReal) (ix2 (0 : Fin 1) j)) (V m c main_arg6 : S256x128.Idx → EReal)
      (fun c' => (V m c main_v14 : S1x128.Idx → EReal) (ix2 (0 : Fin 1) c')) r q := rfl

/-- What the body leaves in the output's staging buffer, for ANY loaded blocks: its one store covers the buffer,
    so the buffer holds the stored value; at row `p`, column `q` that is the perceptron of row `p`. -/
theorem out_apply (x0 : Vec Ideal S5000x48 .f32) (x1 : Vec Ideal S5000x128 .f32) (x2 : Vec Ideal S1x64 .f32) (x3 : Vec Ideal S240x256 .f32)
    (x4 : Vec Ideal S1x256 .f32) (x5 : Vec Ideal S256x128 .f32) (x6 : Vec Ideal S1x128 .f32) (j : S5000x128.Idx) :
    out0_7 (F := Ideal) x0 x1 x2 x3 x4 x5 x6 j
      = mlp (R := 5000) x0 x1 (fun k => x2 (ix2 (0 : Fin 1) k)) x3 (fun j => x4 (ix2 (0 : Fin 1) j)) x5 (fun c => x6 (ix2 (0 : Fin 1) c)) (j 0) (j 1) := by
  obtain ⟨p, q, rfl⟩ : ∃ (p : Fin 5000) (q : Fin 128), j = ix2 p q := ⟨j 0, j 1, eq_ix2 j⟩
  unfold out0_7
  rw [View.canon_unit_zero hz]
  simp only [View.ld_unit_zero (S := S5000x48) hz, View.ld_unit_zero (S := S5000x128) hz, View.ld_unit_zero (S := S1x64) hz,
    View.ld_unit_zero (S := S240x256) hz, View.ld_unit_zero (S := S1x256) hz, View.ld_unit_zero (S := S256x128) hz,
    View.ld_unit_zero (S := S1x128) hz]
  exact Cert.KernelIdeal.Body.stored_apply x0 x1 x2 x3 x4 x5 x6 p q

/-- The output's block lies inside the array at every point, so what is written back is the whole staging buffer. -/
theorem cut_out (t : Fin cfg0.N) (X : Vec Ideal S5000x128 .f32) : (cfg0.win 7).cut (grid0.coords t) X = X := rfl

/-- Entry `j` of point `t`'s output block sits at row `5000 t + j₀`, column `j₁` of the result array. -/
theorem outBlock_emb (t : Fin cfg0.N) (j : S5000x128.Idx) :
    ((cfg0.win 7).blk t).view.emb j = (ix2 (rowOf t (j 0)) (j 1) : S100000x128.Idx) := by
  obtain ⟨-, -, -, -, -, -, -, -, -, -, -, -, -, -, e0, e1⟩ := idx_facts t
  funext a
  apply Fin.ext
  match a with
  | ⟨0, _⟩ => show win0_7.index t (0 : Fin 2) * 5000 + 1 * (j 0).val = 5000 * t.val + (j 0).val; rw [e0]; omega
  | ⟨1, _⟩ => show win0_7.index t (1 : Fin 2) * 128 + 1 * (j 1).val = (j 1).val; rw [e1]; omega

/-- The perceptron of a row of point `t`'s input blocks is the perceptron of that row of the whole arrays. -/
theorem blockRow_eq (c : Dev nD) (t : Fin cfg0.N) (p : Fin 5000) (q : Fin 128) :
    mlp (R := 5000) (iblk m c 0 t : Vec Ideal S5000x48 .f32) (iblk m c 1 t : Vec Ideal S5000x128 .f32)
        (fun k => (iblk m c 2 t : Vec Ideal S1x64 .f32) (ix2 (0 : Fin 1) k)) (iblk m c 3 t : Vec Ideal S240x256 .f32)
        (fun j => (iblk m c 4 t : Vec Ideal S1x256 .f32) (ix2 (0 : Fin 1) j)) (iblk m c 5 t : Vec Ideal S256x128 .f32)
        (fun c' => (iblk m c 6 t : Vec Ideal S1x128 .f32) (ix2 (0 : Fin 1) c')) p q
      = mlp (R := 100000) (V m c main_v11 : S100000x48.Idx → EReal) (V m c main_arg2 : S100000x128.Idx → EReal)
      (fun k => (V m c main_v12 : S1x64.Idx → EReal) (ix2 (0 : Fin 1) k)) (V m c main_arg4 : S240x256.Idx → EReal)
      (fun j => (V m c main_v13 : S1x256.Idx → EReal) (ix2 (0 : Fin 1) j)) (V m c main_arg6 : S256x128.Idx → EReal)
      (fun c' => (V m c main_v14 : S1x128.Idx → EReal) (ix2 (0 : Fin 1) c')) (rowOf t p) q :=
  mlp_congr _ _ _ _ _ _ _ _ _ _ _ _ _ _ p (rowOf t p) q (fun k => aggBlock_apply m c t p k) (fun k => nodeBlock_apply m c t p k)
    (funext fun k => congrFun (globBlock_eq m c t) (ix2 (0 : Fin 1) k)) (w1Block_eq m c t)
    (funext fun j => congrFun (b1Block_eq m c t) (ix2 (0 : Fin 1) j)) (w2Block_eq m c t)
    (funext fun c' => congrFun (b2Block_eq m c t) (ix2 (0 : Fin 1) c'))

/-- For ANY loaded blocks and ANY whole-array function `G`: if the perceptron of each row `p` of the blocks is `G` at
    row `5000 t + p`, then what the body leaves in the output's buffer, written back whole, is block `t` of `G`. -/
theorem flushed_core (t : Fin cfg0.N) (x0 : Vec Ideal S5000x48 .f32) (x1 : Vec Ideal S5000x128 .f32) (x2 : Vec Ideal S1x64 .f32)
    (x3 : Vec Ideal S240x256 .f32) (x4 : Vec Ideal S1x256 .f32) (x5 : Vec Ideal S256x128 .f32) (x6 : Vec Ideal S1x128 .f32)
    (G : S100000x128.Idx → EReal)
    (h : ∀ (p : Fin 5000) (q : Fin 128),
      mlp (R := 5000) x0 x1 (fun k => x2 (ix2 (0 : Fin 1) k)) x3 (fun j => x4 (ix2 (0 : Fin 1) j)) x5 (fun c => x6 (ix2 (0 : Fin 1) c)) p q
        = G (ix2 (rowOf t p) q)) :
    (cfg0.win 7).cut (grid0.coords t) (out0_7 (F := Ideal) x0 x1 x2 x3 x4 x5 x6) = ((cfg0.win 7).blk t).view.read (Elt Ideal) G := by
  refine (cut_out t _).trans ?_
  funext j
  rw [View.read_apply]
  refine (out_apply x0 x1 x2 x3 x4 x5 x6 j).trans ?_
  refine (h (j 0) (j 1)).trans ?_
  exact congrArg G (outBlock_emb t j).symm

/-- What point `t` writes back is block `t` of `result`. -/
theorem flushed_eq (c : Dev nD) (t : Fin cfg0.N) :
    (dats m 0 c).flushed 7 t = ((cfg0.win 7).blk t).view.read (Elt Ideal) (result m c) := by
  rw [Cert.KernelIdeal.Value.flushed7]
  exact flushed_core t _ _ _ _ _ _ _ (result m c) (fun p q => (blockRow_eq m c t p q).trans (result_apply m c (rowOf t p) q).symm)

/-! ## The cover, the final array, the run -/

/-- An index of the array is in point `t`'s output block iff each coordinate is in the block's range on its axis. -/
theorem mem_blk (t : Fin cfg0.N) (i : S100000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v15).slice (win0_7.rect t)).set ↔ _
  rw [View.set_slice_whole, Rect.mem_set_unit]
  exact Iff.rfl

/-- Every index of the result array is in some point's block: row `r` is in block `r / 5000`. -/
theorem cover (i : S100000x128.Idx) : ∃ t : Fin cfg0.N, (cfg0.win 7).flush t = true ∧ i ∈ ((cfg0.win 7).blk t).view.set := by
  have hi0 : (i 0).val < 100000 := idx2_lt0 i
  have hi1 : (i 1).val < 128 := idx2_lt1 i
  let t : Fin cfg0.N := ⟨(i 0).val / 5000, by rw [show cfg0.N = 20 from N_0]; omega⟩
  obtain ⟨-, -, -, -, -, -, -, -, -, -, -, -, -, -, e0, e1⟩ := idx_facts t
  have ht : t.val = (i 0).val / 5000 := rfl
  refine ⟨t, flush0_7 t, ?_⟩
  rw [mem_blk]
  intro a
  match a with
  | ⟨0, _⟩ => show win0_7.index t (0 : Fin 2) * 5000 ≤ (i 0).val ∧ (i 0).val < win0_7.index t (0 : Fin 2) * 5000 + 5000; rw [e0, ht]; omega
  | ⟨1, _⟩ => show win0_7.index t (1 : Fin 2) * 128 ≤ (i 1).val ∧ (i 1).val < win0_7.index t (1 : Fin 2) * 128 + 128; rw [e1]; omega

/-- After the run the result array is `result`. -/
theorem final (c : Dev nD) : (dats m 0 c).arrAt 7 cfg0.N = result m c :=
  (dats m 0 c).arrAt_eq_of_cover 7 (result m c) (fun t _ => flushed_eq m c t) cover

/-- The run, read: the result array at `result`, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.KernelIdeal.Blocks

end
-- ==== Proof.RefRow.lean ====
/-
  The reference's result, read at one entry. The reference lays the aggregated features, the node features and
  the global features (repeated down all rows) side by side, multiplies by the first weight matrix, adds the first
  bias, clamps below at zero, multiplies by the second weight matrix and adds the second bias — on all 100000 rows
  at once. Entry (r, c) of its result is therefore the perceptron of `Cert.Mlp.mlp` applied to row `r` of the
  aggregated and node feature arrays. The aggregation stage itself is left as the stage's own term.
-/
import proofs.«122300_j44865228374365_1_alg».proof.Proof.Gen.ReferenceIdeal.Read
import proofs.«122300_j44865228374365_1_alg».proof.Proof.MlpSpec
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx Cert.Mlp

variable (x0 : (⟨S1600000x48, .f32⟩ : BufTy).Contents (Elt Ideal)) (x1 : (⟨S1600000, .i32⟩ : BufTy).Contents (Elt Ideal))
  (x2 : (⟨S100000x128, .f32⟩ : BufTy).Contents (Elt Ideal)) (x3 : (⟨S64, .f32⟩ : BufTy).Contents (Elt Ideal))
  (x4 : (⟨S240x256, .f32⟩ : BufTy).Contents (Elt Ideal)) (x5 : (⟨S256, .f32⟩ : BufTy).Contents (Elt Ideal))
  (x6 : (⟨S256x128, .f32⟩ : BufTy).Contents (Elt Ideal)) (x7 : (⟨S128, .f32⟩ : BufTy).Contents (Elt Ideal))

/-- The reference's feature rows: the three pieces side by side, read at row `r` and column `k`. -/
theorem features_apply (r : Fin 100000) (k : Fin 240) :
    val_main_v13 (F := Ideal) x0 x1 x2 x3 (ix2 r k)
      = feat (fun k => val_main_v11 (F := Ideal) x0 x1 (ix2 r k)) (fun k => x2 (ix2 r k)) (fun k => x3 (ix1 k)) k := by
  unfold val_main_v13
  refine (concat3_apply (R := 100000) _ x2 _ concatenates_S100000x48_S100000x128_S100000x64_S100000x240_d1 r k).trans ?_
  refine congrArg (fun g => feat _ _ g k) (funext fun k' => ?_)
  rw [val_main_v12_apply]
  exact congrArg x3 (funext fun a => Fin.ext (by match a with | ⟨0, _⟩ => rfl))

/-- The reference's hidden layer at row `r`, unit `j`. -/
theorem hidden_apply (r : Fin 100000) (j : Fin 256) :
    val_main_v18 (F := Ideal) x0 x1 x2 x3 x4 x5 (ix2 r j)
      = Cert.Mlp.hidden (feat (fun k => val_main_v11 (F := Ideal) x0 x1 (ix2 r k)) (fun k => x2 (ix2 r k)) (fun k => x3 (ix1 k))) x4 (fun j => x5 (ix1 j)) j := by
  rw [val_main_v18_apply, val_main_v17_apply, val_main_v14_apply, val_main_v16_apply, val_main_v15_apply, val_main_call0_v0_apply,
    val_main_call0_cst_apply]
  unfold Cert.Mlp.hidden
  simp only [Ideal.addf_def, Ideal.maximumf_def, Ideal.ofBits_def]
  refine congrArg₂ max (congrArg₂ (· + ·) (Finset.sum_congr rfl fun k _ => congrArg₂ (· * ·) ?_ ?_) ?_) rfl
  · rw [show lidx_main_v14 (ix2 r j) k = ix2 r k from funext fun a => Fin.ext (by match a with | ⟨0, _⟩ => rfl | ⟨1, _⟩ => rfl)]
    exact features_apply x0 x1 x2 x3 r k
  · exact congrArg x4 (funext fun a => Fin.ext (by match a with | ⟨0, _⟩ => rfl | ⟨1, _⟩ => rfl))
  · exact congrArg x5 (funext fun a => Fin.ext (by match a with | ⟨0, _⟩ => rfl))

/-- The reference's result at row `r`, column `c`: the perceptron of row `r`. -/
theorem result_apply (i : S100000x128.Idx) :
    val_main_v22 (F := Ideal) x0 x1 x2 x3 x4 x5 x6 x7 i
      = mlp (R := 100000) (val_main_v11 (F := Ideal) x0 x1) x2 (fun k => x3 (ix1 k)) x4 (fun j => x5 (ix1 j)) x6 (fun c => x7 (ix1 c)) (i 0) (i 1) := by
  obtain ⟨r, c, rfl⟩ : ∃ (r : Fin 100000) (c : Fin 128), i = ix2 r c := ⟨i 0, i 1, eq_ix2 i⟩
  rw [val_main_v22_apply, val_main_v19_apply, val_main_v21_apply, val_main_v20_apply]
  unfold mlp outRow
  simp only [Ideal.addf_def]
  refine congrArg₂ (· + ·) (Finset.sum_congr rfl fun j _ => congrArg₂ (· * ·) ?_ ?_) ?_
  · rw [show lidx_main_v19 (ix2 r c) j = ix2 r j from funext fun a => Fin.ext (by match a with | ⟨0, _⟩ => rfl | ⟨1, _⟩ => rfl)]
    exact hidden_apply x0 x1 x2 x3 x4 x5 r j
  · exact congrArg x6 (funext fun a => Fin.ext (by match a with | ⟨0, _⟩ => rfl | ⟨1, _⟩ => rfl))
  · exact congrArg x7 (funext fun a => Fin.ext (by match a with | ⟨0, _⟩ => rfl))

end Cert.ReferenceIdeal.RefValue

end
-- ==== Proof.lean ====
/-
  The kernel updates every node of a graph by a two-layer perceptron of the node's concatenated features — the
  mean of its incoming edges' features, its own features and the graph's global features — and the reference
  computes the same update with plain array operations. Both programs begin with the same host operations for the
  mean aggregation (two scatter-additions of the edge rows and of ones into the receiving nodes, the count clamped
  below at one, a division), so that array is ONE term of the edge features and receivers on both sides and is never
  opened. The kernel then runs the perceptron on blocks of 5000 rows with the operands of its two matrix products
  rounded to a narrower float format, which on the extended reals is the identity; the reference runs it on all
  100000 rows at once. Because the perceptron acts row by row, the kernel's 20 blocks are the 20 row blocks of the
  reference's result: entry (r, c) of either result is
    `Σⱼ max (Σₖ x[r, k] · W1[k, j] + b1[j]) 0 · W2[j, c] + b2[c]`
  with `x[r, ·]` the concatenated feature row. No algebraic law beyond reading both sides at an index is needed,
  so the finiteness of the inputs is never used.

  The frames of the two kernel programs are the generated frame certificates; the reference's frame is its
  generated run with the result dropped; the idealization rewrote nothing, so `preserves` is trivial.
-/
import proofs.«122300_j44865228374365_1_alg».proof.Defs
import proofs.«122300_j44865228374365_1_alg».proof.Proof.Gen.Kernel
import proofs.«122300_j44865228374365_1_alg».proof.Proof.Gen.Kernel.Skeleton
import proofs.«122300_j44865228374365_1_alg».proof.Proof.Gen.Kernel.Launch
import proofs.«122300_j44865228374365_1_alg».proof.Proof.Gen.Kernel.Points
import proofs.«122300_j44865228374365_1_alg».proof.Proof.Gen.Kernel.Frame
import proofs.«122300_j44865228374365_1_alg».proof.Proof.Gen.KernelIdeal
import proofs.«122300_j44865228374365_1_alg».proof.Proof.Gen.KernelIdeal.Skeleton
import proofs.«122300_j44865228374365_1_alg».proof.Proof.Gen.KernelIdeal.Launch
import proofs.«122300_j44865228374365_1_alg».proof.Proof.Gen.KernelIdeal.Points
import proofs.«122300_j44865228374365_1_alg».proof.Proof.Gen.KernelIdeal.Frame
import proofs.«122300_j44865228374365_1_alg».proof.Proof.Gen.ReferenceIdeal
import proofs.«122300_j44865228374365_1_alg».proof.Proof.Gen.Pre_finite_inputs
import proofs.«122300_j44865228374365_1_alg».proof.Proof.Gen.KernelIdeal.Value
import proofs.«122300_j44865228374365_1_alg».proof.Proof.Gen.ReferenceIdeal.Run
import proofs.«122300_j44865228374365_1_alg».proof.Proof.Gen.ReferenceIdeal.Read
import proofs.«122300_j44865228374365_1_alg».proof.Proof.RegionEntry
import proofs.«122300_j44865228374365_1_alg».proof.Proof.Blocks
import proofs.«122300_j44865228374365_1_alg».proof.Proof.RefRow
import Idealize.ShloMosaic.Lib.ValueLayout
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's result of the kernel's argument arrays is the kernel's whole-array function: both are the
    perceptron of every row of the same aggregated and node feature arrays; the kernel's one-row recasts of the
    global features and of the two biases read, at (0, k), the vectors at k. -/
theorem result_eq (m : (ℓ : Loc Cert.KernelIdeal.nD Cert.KernelIdeal.τ Cert.KernelIdeal.sig) → Buf (Elt Ideal) ℓ) (c : Dev Cert.KernelIdeal.nD) :
    Cert.ReferenceIdeal.Read.val_main_v22 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
      = Cert.KernelIdeal.Blocks.result m c := by
  funext i
  obtain ⟨r, q, rfl⟩ : ∃ (r : Fin 100000) (q : Fin 128), i = ix2 r q := ⟨i 0, i 1, eq_ix2 i⟩
  refine (Cert.ReferenceIdeal.RefValue.result_apply _ _ _ _ _ _ _ _ (ix2 r q)).trans ?_
  refine Eq.trans ?_ (Cert.KernelIdeal.Blocks.result_apply m c r q).symm
  exact Cert.KernelIdeal.Blocks.mlp_congr _ _ _ _ _ _ _ _ _ _ _ _ _ _ r r q
    (fun k => (congrFun (Cert.KernelIdeal.Entry.agg_entry m c) (ix2 r k)).symm)
    (fun k => (congrFun (Cert.KernelIdeal.Gen.V_main_arg2 m c) (ix2 r k)).symm)
    (funext fun k => ((congrFun (Cert.KernelIdeal.Entry.glob_entry m c) (ix2 (0 : Fin 1) k)).trans (shapeCast_a_1a_apply _ _ (0 : Fin 1) k)).symm)
    (Cert.KernelIdeal.Gen.V_main_arg4 m c).symm
    (funext fun j => ((congrFun (Cert.KernelIdeal.Entry.bias1_entry m c) (ix2 (0 : Fin 1) j)).trans (shapeCast_a_1a_apply _ _ (0 : Fin 1) j)).symm)
    (Cert.KernelIdeal.Gen.V_main_arg6 m c).symm
    (funext fun c' => ((congrFun (Cert.KernelIdeal.Entry.bias2_entry m c) (ix2 (0 : Fin 1) c')).trans (shapeCast_a_1a_apply _ _ (0 : Fin 1) c')).symm)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the perceptron of every row of the same arrays. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [a0, a1, a2, a3, a4, a5, a6, a7, Cert.ReferenceIdeal.Read.val_main_v22_eq]
  exact result_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
